-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x128 : Shape := ⟨3, ![4, 2048, 128]⟩
abbrev S_ : Shape := ⟨0, ![]⟩

class Facts : Prop where
  bcast_S_S4x2048x128 : S_.BroadcastsInDim S4x2048x128 (![] : Fin 0 → Fin S4x2048x128.rank)
  reducesTo_S4x2048x128_S_d0_1_2 : S4x2048x128.ReducesTo [0, 1, 2] S_
  h_S_ : 0 < S_.numel

variable [Facts]

def fn {F : FTy → Type} [FloatOps F] (main_arg0 : FVec F S4x2048x128 .f32) (main_arg1 : FVec F S4x2048x128 .f32) (main_arg2 : FVec F S4x2048x128 .f32) : IVec S_ 1 :=
  let main_v0 : FVec F S4x2048x128 .f32 := Host.absf main_arg0
  let main_cst : FVec F S_ .f32 := constant S_ .f32 0x7F800000#32
  let main_v1 : FVec F S4x2048x128 .f32 := broadcastInDim S4x2048x128 ![] bcast_S_S4x2048x128 main_cst
  let main_v2 : IVec S4x2048x128 1 := cmpf .olt main_v0 main_v1
  let main_c : IVec S_ 1 := constantI S_ 1 1#1
  let main_v3 : IVec S_ 1 := (fun x v => Host.reduce IntOp.andi x v reducesTo_S4x2048x128_S_d0_1_2 h_S_) main_v2 main_c
  let main_v4 : FVec F S4x2048x128 .f32 := Host.absf main_arg1
  let main_cst_0 : FVec F S_ .f32 := constant S_ .f32 0x7F800000#32
  let main_v5 : FVec F S4x2048x128 .f32 := broadcastInDim S4x2048x128 ![] bcast_S_S4x2048x128 main_cst_0
  let main_v6 : IVec S4x2048x128 1 := cmpf .olt main_v4 main_v5
  let main_c_1 : IVec S_ 1 := constantI S_ 1 1#1
  let main_v7 : IVec S_ 1 := (fun x v => Host.reduce IntOp.andi x v reducesTo_S4x2048x128_S_d0_1_2 h_S_) main_v6 main_c_1
  let main_v8 : IVec S_ 1 := andi main_v3 main_v7
  let main_v9 : FVec F S4x2048x128 .f32 := Host.absf main_arg2
  let main_cst_2 : FVec F S_ .f32 := constant S_ .f32 0x7F800000#32
  let main_v10 : FVec F S4x2048x128 .f32 := broadcastInDim S4x2048x128 ![] bcast_S_S4x2048x128 main_cst_2
  let main_v11 : IVec S4x2048x128 1 := cmpf .olt main_v9 main_v10
  let main_c_3 : IVec S_ 1 := constantI S_ 1 1#1
  let main_v12 : IVec S_ 1 := (fun x v => Host.reduce IntOp.andi x v reducesTo_S4x2048x128_S_d0_1_2 h_S_) main_v11 main_c_3
  let main_v13 : IVec S_ 1 := andi main_v8 main_v12
  main_v13
-- ==== Kernel.lean ====
abbrev S4x2048x128 : Shape := ⟨3, ![4, 2048, 128]⟩
abbrev S1x2048x128 : Shape := ⟨3, ![1, 2048, 128]⟩
abbrev S2048x128 : Shape := ⟨2, ![2048, 128]⟩
abbrev S128 : Shape := ⟨1, ![128]⟩
abbrev S1x128 : Shape := ⟨2, ![1, 128]⟩
abbrev S128x128 : Shape := ⟨2, ![128, 128]⟩
abbrev S128x1 : Shape := ⟨2, ![128, 1]⟩

abbrev nBuf : Space → Nat
  | .hbm => 4
  | .vmem => 8
  | .smem => 0
  | _ => 0

abbrev bufTy : (tb : Table) → Fin (tcTables nBuf tb) → BufTy
  | .hbm, ⟨0, _⟩ => ⟨S4x2048x128, .f32⟩
  | .hbm, ⟨1, _⟩ => ⟨S4x2048x128, .f32⟩
  | .hbm, ⟨2, _⟩ => ⟨S4x2048x128, .f32⟩
  | .hbm, ⟨3, _⟩ => ⟨S4x2048x128, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | _, _ => ⟨S4x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  reduces_S2048x128_S128 : S2048x128.Reduces [0] S128
  shapeCasts_S128_S1x128 : S128.ShapeCasts S1x128
  broadcasts_S1x128_S2048x128 : S1x128.Broadcasts S2048x128
  reduces_S128x128_S128 : S128x128.Reduces [1] S128
  shapeCasts_S128_S128x1 : S128.ShapeCasts S128x1
  broadcasts_S128x1_S128x128 : S128x1.Broadcasts S128x128
  shapeCasts_S2048x128_S1x2048x128 : S2048x128.ShapeCasts S1x2048x128
  dot_S2048x128_S2048x128_S128x128_0_0_1_1_n_n_wf : DotDims.WF S2048x128 S2048x128 S128x128 [0] [0] [1] [1] [] []
  dot_S2048x128_S128x128_S2048x128_1_1_0_0_n_n_wf : DotDims.WF S2048x128 S128x128 S2048x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S4x2048x128.size a
  hwx0_0 : ∀ i : grid0.Coords, EltTy.bits .f32 = 32 ∨ (Rect.block (s := S4x2048x128) S1x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S4x2048x128.size a
  hwx0_1 : ∀ i : grid0.Coords, EltTy.bits .f32 = 32 ∨ (Rect.block (s := S4x2048x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S4x2048x128.size a
  hwx0_2 : ∀ i : grid0.Coords, EltTy.bits .f32 = 32 ∨ (Rect.block (s := S4x2048x128) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x128.size a ≤ S4x2048x128.size a
  hwx0_3 : ∀ i : grid0.Coords, EltTy.bits .f32 = 32 ∨ (Rect.block (s := S4x2048x128) S1x2048x128.size (cc0_transform_3 i) (hinb0_3 i)).WholeWords (EltTy.packing .f32)

variable [Facts₀]

def dot_S2048x128_S2048x128_S128x128_0_0_1_1_n_n : DotDims S2048x128 S2048x128 S128x128 where
  lhsContracting := [0]
  rhsContracting := [0]
  lhsNonContracting := [1]
  rhsNonContracting := [1]
  lhsBatch := []
  rhsBatch := []
  wf := dot_S2048x128_S2048x128_S128x128_0_0_1_1_n_n_wf
def dot_S2048x128_S128x128_S2048x128_1_1_0_0_n_n : DotDims S2048x128 S128x128 S2048x128 where
  lhsContracting := [1]
  rhsContracting := [1]
  lhsNonContracting := [0]
  rhsNonContracting := [0]
  lhsBatch := []
  rhsBatch := []
  wf := dot_S2048x128_S128x128_S2048x128_1_1_0_0_n_n_wf

abbrev win0_0 : Pipeline.Window sig grid0 :=
  Pipeline.Window.ofSpec (Memref.whole main_arg0) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x128 : Shape := ⟨3, ![4, 2048, 128]⟩
abbrev S_ : Shape := ⟨0, ![]⟩
abbrev S4x128 : Shape := ⟨2, ![4, 128]⟩
abbrev S4x1x128 : Shape := ⟨3, ![4, 1, 128]⟩
abbrev S4x128x128 : Shape := ⟨3, ![4, 128, 128]⟩
abbrev S4x128x1 : Shape := ⟨3, ![4, 128, 1]⟩

abbrev nBuf : Space → Nat
  | .hbm => 39
  | .vmem => 0
  | .smem => 0
  | _ => 0

abbrev bufTy : (tb : Table) → Fin (tcTables nBuf tb) → BufTy
  | .hbm, ⟨0, _⟩ => ⟨S4x2048x128, .f32⟩
  | .hbm, ⟨1, _⟩ => ⟨S4x2048x128, .f32⟩
  | .hbm, ⟨2, _⟩ => ⟨S4x2048x128, .f32⟩
  | .hbm, ⟨3, _⟩ => ⟨S4x2048x128, .f32⟩
  | .hbm, ⟨4, _⟩ => ⟨S_, .f32⟩
  | .hbm, ⟨5, _⟩ => ⟨S4x128, .f32⟩
  | .hbm, ⟨6, _⟩ => ⟨S4x1x128, .f32⟩
  | .hbm, ⟨7, _⟩ => ⟨S4x1x128, .f32⟩
  | .hbm, ⟨8, _⟩ => ⟨S_, .f32⟩
  | .hbm, ⟨9, _⟩ => ⟨S4x1x128, .f32⟩
  | .hbm, ⟨10, _⟩ => ⟨S4x1x128, .f32⟩
  | .hbm, ⟨11, _⟩ => ⟨S4x2048x128, .f32⟩
  | .hbm, ⟨12, _⟩ => ⟨S4x2048x128, .f32⟩
  | .hbm, ⟨13, _⟩ => ⟨S4x2048x128, .f32⟩
  | .hbm, ⟨14, _⟩ => ⟨S_, .f32⟩
  | .hbm, ⟨15, _⟩ => ⟨S4x128, .f32⟩
  | .hbm, ⟨16, _⟩ => ⟨S4x1x128, .f32⟩
  | .hbm, ⟨17, _⟩ => ⟨S4x1x128, .f32⟩
  | .hbm, ⟨18, _⟩ => ⟨S_, .f32⟩
  | .hbm, ⟨19, _⟩ => ⟨S4x1x128, .f32⟩
  | .hbm, ⟨20, _⟩ => ⟨S4x1x128, .f32⟩
  | .hbm, ⟨21, _⟩ => ⟨S4x2048x128, .f32⟩
  | .hbm, ⟨22, _⟩ => ⟨S4x2048x128, .f32⟩
  | .hbm, ⟨23, _⟩ => ⟨S4x128x128, .f32⟩
  | .hbm, ⟨24, _⟩ => ⟨S_, .f32⟩
  | .hbm, ⟨25, _⟩ => ⟨S4x128, .f32⟩
  | .hbm, ⟨26, _⟩ => ⟨S_, .f32⟩
  | .hbm, ⟨27, _⟩ => ⟨S4x128, .f32⟩
  | .hbm, ⟨28, _⟩ => ⟨S4x128, .f32⟩
  | .hbm, ⟨29, _⟩ => ⟨S4x128x1, .f32⟩
  | .hbm, ⟨30, _⟩ => ⟨S4x128x128, .f32⟩
  | .hbm, ⟨31, _⟩ => ⟨S4x128x128, .f32⟩
  | .hbm, ⟨32, _⟩ => ⟨S4x128x128, .f32⟩
  | .hbm, ⟨33, _⟩ => ⟨S_, .f32⟩
  | .hbm, ⟨34, _⟩ => ⟨S4x128, .f32⟩
  | .hbm, ⟨35, _⟩ => ⟨S4x128x1, .f32⟩
  | .hbm, ⟨36, _⟩ => ⟨S4x128x128, .f32⟩
  | .hbm, ⟨37, _⟩ => ⟨S4x128x128, .f32⟩
  | .hbm, ⟨38, _⟩ => ⟨S4x2048x128, .f32⟩
  | _, _ => ⟨S4x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]

class Facts₀ : Prop where
  reducesTo_S4x2048x128_S4x128_d1 : S4x2048x128.ReducesTo [1] S4x128
  h_S_ : 0 < S_.numel
  bcast_S4x128_S4x1x128_0_2 : S4x128.BroadcastsInDim S4x1x128 (![0, 2] : Fin 2 → Fin S4x1x128.rank)
  bcast_S_S4x1x128 : S_.BroadcastsInDim S4x1x128 (![] : Fin 0 → Fin S4x1x128.rank)
  bcast_S4x1x128_S4x2048x128_0_1_2 : S4x1x128.BroadcastsInDim S4x2048x128 (![0, 1, 2] : Fin 3 → Fin S4x2048x128.rank)
  reducesTo_S4x128x128_S4x128_d2 : S4x128x128.ReducesTo [2] S4x128
  bcast_S_S4x128 : S_.BroadcastsInDim S4x128 (![] : Fin 0 → Fin S4x128.rank)
  bcast_S4x128_S4x128x1_0_1 : S4x128.BroadcastsInDim S4x128x1 (![0, 1] : Fin 2 → Fin S4x128x1.rank)
  bcast_S4x128x1_S4x128x128_0_1_2 : S4x128x1.BroadcastsInDim S4x128x128 (![0, 1, 2] : Fin 3 → Fin S4x128x128.rank)
  dot_S4x2048x128_S4x2048x128_S4x128x128_1_1_2_2_0_0_wf : DotDims.WF S4x2048x128 S4x2048x128 S4x128x128 [1] [1] [2] [2] [0] [0]
  dot_S4x2048x128_S4x128x128_S4x2048x128_2_2_1_1_0_0_wf : DotDims.WF S4x2048x128 S4x128x128 S4x2048x128 [2] [2] [1] [1] [0] [0]

variable [Facts₀]

def dot_S4x2048x128_S4x2048x128_S4x128x128_1_1_2_2_0_0 : DotDims S4x2048x128 S4x2048x128 S4x128x128 where
  lhsContracting := [1]
  rhsContracting := [1]
  lhsNonContracting := [2]
  rhsNonContracting := [2]
  lhsBatch := [0]
  rhsBatch := [0]
  wf := dot_S4x2048x128_S4x2048x128_S4x128x128_1_1_2_2_0_0_wf
def dot_S4x2048x128_S4x128x128_S4x2048x128_2_2_1_1_0_0 : DotDims S4x2048x128 S4x128x128 S4x2048x128 where
  lhsContracting := [2]
  rhsContracting := [2]
  lhsNonContracting := [1]
  rhsNonContracting := [1]
  lhsBatch := [0]
  rhsBatch := [0]
  wf := dot_S4x2048x128_S4x128x128_S4x2048x128_2_2_1_1_0_0_wf

class Facts : Prop extends Facts₀ where

variable [Facts]
-- ==== Proof.ChannelAttn.lean ====
/-
  Channel attention over one batch entry, as a function of three matrices.

  For matrices Q, K, V with 2048 rows (sequence positions) and 128 columns (channels), every entry an extended real:
  * each column of Q and of K is divided by its Euclidean norm over the rows, the norm floored at a small positive
    constant (`colNorm`, `unitCol`);
  * the 128 × 128 cross-covariance of the normalized columns is the sum over the rows of the products (`cov`);
  * each of its rows is passed through a softmax: the row maximum is subtracted, the exponential taken, and the row
    divided by its sum (`rowMax`, `expo`, `denom`, `weight`);
  * the result at row `l`, channel `d` is the sum over channels `e` of `V l e` times the weight of `(d, e)` (`attend`).
  Over an array of 4 batch entries the same is done entry by entry (`slab`, `attendAll`).
  Every operation is the exact one on the extended reals; no program is mentioned here.
-/
import Idealize.ShloMosaic.PureOps.Ideal
import Idealize.ShloMosaic.PureOps.Ideal.Laws
import Idealize.ShloMosaic.Lib.ValueIdx

noncomputable section

open scoped BigOperators

namespace Cert.ChannelAttn

open Idealize.ShloMosaic

/-- One batch entry: a matrix of 2048 rows and 128 channels. -/
abbrev Slab : Type := Fin 2048 → Fin 128 → EReal

/-- The floor under a column's norm (the f32 nearest to 1e-12). -/
def floorEps : EReal := Ideal.ofBits .f32 0x2B8CBCCC#32

/-- The value a running maximum starts from: minus infinity. -/
def negInf : EReal := Ideal.ofBits .f32 0xFF800000#32

/-- The norm of column `d` over the rows, floored. -/
def colNorm (X : Slab) (d : Fin 128) : EReal :=
  max (Ideal.sqrt (∑ l : Fin 2048, X l d * X l d)) floorEps

/-- The entry at `(l, d)` of the matrix with every column divided by its floored norm. -/
def unitCol (X : Slab) (l : Fin 2048) (d : Fin 128) : EReal := Ideal.div (X l d) (colNorm X d)

/-- The cross-covariance of the normalized columns `d` of `Q` and `e` of `K`. -/
def cov (Q K : Slab) (d e : Fin 128) : EReal := ∑ l : Fin 2048, unitCol Q l d * unitCol K l e

/-- The maximum of row `d` of the cross-covariance. -/
def rowMax (Q K : Slab) (d : Fin 128) : EReal :=
  max negInf ((Finset.univ : Finset (Fin 128)).fold max negInf fun e => cov Q K d e)

/-- The exponential of the cross-covariance entry less its row's maximum. -/
def expo (Q K : Slab) (d e : Fin 128) : EReal := Ideal.exp (cov Q K d e - rowMax Q K d)

/-- The sum of row `d` of the exponentials. -/
def denom (Q K : Slab) (d : Fin 128) : EReal := ∑ e : Fin 128, expo Q K d e

/-- The softmax weight of `(d, e)`. -/
def weight (Q K : Slab) (d e : Fin 128) : EReal := Ideal.div (expo Q K d e) (denom Q K d)

/-- The attended value at row `l`, channel `d`. -/
def attend (Q K V : Slab) (l : Fin 2048) (d : Fin 128) : EReal := ∑ e : Fin 128, V l e * weight Q K d e

/-! ## Over the batch -/

/-- A whole array: 4 batch entries of 2048 rows and 128 channels. -/
abbrev Arr : Type := (⟨3, ![4, 2048, 128]⟩ : Shape).Idx → EReal

/-- Batch entry `b` of an array. -/
def slab (x : Arr) (b : Fin 4) : Slab := fun l d => x (ValueIdx.ix3 b l d)

/-- Channel attention of every batch entry: the result array, index by index. -/
def attendAll (q k v : Arr) : Arr := fun i =>
  attend (slab q ⟨(i 0).val, (i 0).isLt⟩) (slab k ⟨(i 0).val, (i 0).isLt⟩) (slab v ⟨(i 0).val, (i 0).isLt⟩)
    ⟨(i 1).val, (i 1).isLt⟩ ⟨(i 2).val, (i 2).isLt⟩

/-- At an index written by its coordinates. -/
theorem attendAll_ix3 (q k v : Arr) (b : Fin 4) (l : Fin 2048) (d : Fin 128) :
    attendAll q k v (ValueIdx.ix3 b l d) = attend (slab q b) (slab k b) (slab v b) l d := rfl

end Cert.ChannelAttn

end
-- ==== Proof.LibKeepdims.lean ====
/-
  Column-shaped layout operations read at an index given by coordinates.

  A sum taken along the last axis with the axis kept (a "keepdims" row sum) leaves a COLUMN: the vector of
  sums `[a]` is re-laid as `[a, 1]` and then broadcast along the new unit axis to `[a, b]`. Read at `(p, c)`
  each of the two steps returns the operand's entry for row `p`, whatever the column `c`: the cast because
  the row-major position of `(p, 0)` in `[a, 1]` is `p · 1 + 0 = p`, the broadcast because a unit axis is read
  at `0` and every other axis at the result's own coordinate. (The transposed pair — a vector re-laid as one row
  `[1, b]` and that row broadcast over `a` rows — is already in the layout library.)
-/
import Idealize.ShloMosaic.Lib.Pipeline.Value
import Idealize.ShloMosaic.Lib.ValueIdx

namespace Cert.Lib.Keepdims

open Idealize.ShloMosaic Idealize.ShloMosaic.ValueIdx

variable {α : Type}

/-- An `[a]` vector cast to the column `[a, 1]` reads, at `(i, u)`, the operand at `i`: the unit coordinate `u`
    is `0`, and `(i, 0)` sits at row-major position `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry for row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.BlockValue.lean ====
/-
  What one grid point of the kernel computes, read at an index: channel attention of the point's three blocks.

  The body loads one batch entry of `q`, `k` and `v` as `[1, 2048, 128]` blocks and drops the unit axis. Its
  arithmetic is cut here into the stages the mathematics names — the row of floored column norms, the matrix with
  normalized columns, the cross-covariance (a matrix product contracting the rows, into a zero accumulator), the
  row maxima, the exponentials, their row sums, the softmax weights, and the product of `v` with the weights
  contracting the channels — and each stage is read at an index written by its coordinates: a lane or sublane sum
  is the sum over the reduced axis, a maximum reduction the fold of `max` from minus infinity, a matrix product
  into a zero accumulator the sum of the products over the contracted axis, and the keepdims casts and broadcasts
  return the entry of the row or column they came from.
-/
import proofs.«142252_j71021579206720_1_alg».proof.Proof.Gen.KernelIdeal.Skeleton
import proofs.«142252_j71021579206720_1_alg».proof.Proof.ChannelAttn
import proofs.«142252_j71021579206720_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BlockValue

open Cert.KernelIdeal Cert.KernelIdeal.Gen Cert.ChannelAttn Cert.Lib.Keepdims Idealize.ShloMosaic Idealize.ShloMosaic.ValueIdx

/-- A square matrix over the channels. -/
abbrev Chan : Type := Fin 128 → Fin 128 → EReal

/-- The matrix a `[1, 2048, 128]` block holds. -/
def blockSlab (x : Vec Ideal S1x2048x128 .f32) : Slab := fun l d => x (ix3 (0 : Fin 1) l d)

/-! ## The stages of the body -/

/-- The block with its unit axis dropped. -/
def rows (x : Vec Ideal S1x2048x128 .f32) : FVec Ideal S2048x128 .f32 :=
  shapeCast S2048x128 x shapeCasts_S1x2048x128_S2048x128

/-- The row of floored column norms. -/
def normRow (v : FVec Ideal S2048x128 .f32) : FVec Ideal S1x128 .f32 :=
  maximumf (sqrt (shapeCast S1x128 (multiReduction .add [0] S128 (mulf v v) 0x00000000#32 reduces_S2048x128_S128 (.inl rfl) rfl) shapeCasts_S128_S1x128))
    (broadcast S1x128 (Scalar.ofBits (F := Ideal) .f32 0x2B8CBCCC#32))

/-- The matrix with every column divided by its floored norm. -/
def unitMat (v : FVec Ideal S2048x128 .f32) : FVec Ideal S2048x128 .f32 :=
  divf v (broadcastTo S2048x128 (normRow v) broadcasts_S1x128_S2048x128)

/-- The product contracting the rows, into a zero accumulator. -/
def covMat (a b : FVec Ideal S2048x128 .f32) : FVec Ideal S128x128 .f32 :=
  matmul dot_S2048x128_S2048x128_S128x128_0_0_1_1_n_n none a b (constant S128x128 .f32 0x00000000#32)

/-- The vector of row maxima. -/
def maxVec (c : FVec Ideal S128x128 .f32) : FVec Ideal S128 .f32 :=
  maximumf (broadcast S128 (Scalar.ofBits (F := Ideal) .f32 0xFF800000#32))
    (multiReduction .maximumf [1] S128 c 0xFF800000#32 reduces_S128x128_S128 (.inl rfl) rfl)

/-- The exponentials of the entries less their row's maximum. -/
def expMat (c : FVec Ideal S128x128 .f32) : FVec Ideal S128x128 .f32 :=
  exp (subf c (broadcastTo S128x128 (shapeCast S128x1 (maxVec c) shapeCasts_S128_S128x1) broadcasts_S128x1_S128x128))

/-- The vector of row sums. -/
def sumVec (p : FVec Ideal S128x128 .f32) : FVec Ideal S128 .f32 :=
  multiReduction .add [1] S128 p 0x00000000#32 reduces_S128x128_S128 (.inl rfl) rfl

/-- Every row divided by its sum. -/
def weightMat (p : FVec Ideal S128x128 .f32) : FVec Ideal S128x128 .f32 :=
  divf p (broadcastTo S128x128 (shapeCast S128x1 (sumVec p) shapeCasts_S128_S128x1) broadcasts_S128x1_S128x128)

/-- The product contracting the channels, into a zero accumulator. -/
def outMat (v : FVec Ideal S2048x128 .f32) (w : FVec Ideal S128x128 .f32) : FVec Ideal S2048x128 .f32 :=
  matmul dot_S2048x128_S128x128_S2048x128_1_1_0_0_n_n none v w (constant S2048x128 .f32 0x00000000#32)

/-- The body's arithmetic is the composition of the stages. -/
theorem payload_eq (x0 x1 x2 : Vec Ideal S1x2048x128 .f32) :
    k0_pay1 (F := Ideal) x0 x1 x2
      = shapeCast S1x2048x128 (outMat (rows x2) (weightMat (expMat (covMat (unitMat (rows x0)) (unitMat (rows x1))))))
          shapeCasts_S2048x128_S1x2048x128 := rfl

/-! ## The reductions at an index -/

/-- A sum down the rows, at channel `d`. -/
theorem colSum_apply (v : FVec Ideal S2048x128 .f32) (hφ : FKind.Formats .f32)
    (hacc : (0x00000000#32 : BitVec FTy.f32.bits) = FKind.add.neutral .f32 hφ) (d : Fin 128) :
    multiReduction .add [0] S128 v 0x00000000#32 reduces_S2048x128_S128 hφ hacc (ix1 d) = ∑ l : Fin 2048, v (ix2 l d) :=
  (Ideal.multiReduction_add_single v _ reduces_S2048x128_S128 hφ hacc (ix1 d)).trans
    (Finset.sum_congr rfl fun l _ => congrArg v (funext fun a => Fin.ext (by match a with | ⟨0, _⟩ => rfl | ⟨1, _⟩ => rfl)))

/-- A sum along a row, at row `d`. -/
theorem rowSum_apply (p : FVec Ideal S128x128 .f32) (hφ : FKind.Formats .f32)
    (hacc : (0x00000000#32 : BitVec FTy.f32.bits) = FKind.add.neutral .f32 hφ) (d : Fin 128) :
    multiReduction .add [1] S128 p 0x00000000#32 reduces_S128x128_S128 hφ hacc (ix1 d) = ∑ e : Fin 128, p (ix2 d e) :=
  (Ideal.multiReduction_add_single p _ reduces_S128x128_S128 hφ hacc (ix1 d)).trans
    (Finset.sum_congr rfl fun e _ => congrArg p (funext fun a => Fin.ext (by match a with | ⟨0, _⟩ => rfl | ⟨1, _⟩ => rfl)))

/-- A maximum along a row, at row `d`: the fold of `max` from minus infinity. -/
theorem rowMaxRed_apply (c : FVec Ideal S128x128 .f32) (hφ : FKind.Formats .f32)
    (hacc : (0xFF800000#32 : BitVec FTy.f32.bits) = FKind.maximumf.neutral .f32 hφ) (d : Fin 128) :
    multiReduction .maximumf [1] S128 c 0xFF800000#32 reduces_S128x128_S128 hφ hacc (ix1 d)
      = (Finset.univ : Finset (Fin 128)).fold max negInf fun e => c (ix2 d e) := by
  refine (Ideal.multiReduction_maximumf_single c _ reduces_S128x128_S128 hφ hacc (ix1 d)).trans ?_
  show (Finset.univ : Finset (Fin 128)).fold max negInf (c ∘ reduces_S128x128_S128.lift (ix1 d)) = _
  refine congrArg (fun f => (Finset.univ : Finset (Fin 128)).fold max negInf f) (funext fun e => congrArg c ?_)
  exact funext fun a => Fin.ext (by match a with | ⟨0, _⟩ => rfl | ⟨1, _⟩ => rfl)

/-! ## The two matrix products at an index -/

theorem covL_1 (i : S128x128.Idx) (q : dot_S2048x128_S2048x128_S128x128_0_0_1_1_n_n.contr.Idx) : (dot_S2048x128_S2048x128_S128x128_0_0_1_1_n_n.lhsIdx i q 1).val = (i 0).val := by
  unfold DotDims.lhsIdx
  rw [dif_neg (show ¬(1 : Fin S2048x128.rank) ∈ dot_S2048x128_S2048x128_S128x128_0_0_1_1_n_n.lhsBatch by decide), dif_pos (show (1 : Fin S2048x128.rank) ∈ dot_S2048x128_S2048x128_S128x128_0_0_1_1_n_n.lhsNonContracting by decide)]
  rfl
theorem covR_1 (i : S128x128.Idx) (q : dot_S2048x128_S2048x128_S128x128_0_0_1_1_n_n.contr.Idx) : (dot_S2048x128_S2048x128_S128x128_0_0_1_1_n_n.rhsIdx i q 1).val = (i 1).val := by
  unfold DotDims.rhsIdx
  rw [dif_neg (show ¬(1 : Fin S2048x128.rank) ∈ dot_S2048x128_S2048x128_S128x128_0_0_1_1_n_n.rhsBatch by decide), dif_pos (show (1 : Fin S2048x128.rank) ∈ dot_S2048x128_S2048x128_S128x128_0_0_1_1_n_n.rhsNonContracting by decide)]
  rfl

/-- The product contracting the rows, at `(d, e)`: the sum over the rows of the two columns' products. -/
theorem covMat_apply (a b : FVec Ideal S2048x128 .f32) (A B : Slab) (hA : ∀ l d, a (ix2 l d) = A l d)
    (hB : ∀ l d, b (ix2 l d) = B l d) (d e : Fin 128) :
    covMat a b (ix2 d e) = ∑ l : Fin 2048, A l d * B l e := by
  unfold covMat
  simp only [matmul]
  rw [Ideal.matmul_constant_zero_apply, ← Equiv.sum_comp (contrEquiv1 dot_S2048x128_S2048x128_S128x128_0_0_1_1_n_n 2048 rfl rfl).symm]
  refine Finset.sum_congr rfl fun l _ => ?_
  have hk := contrEquiv1_symm_val dot_S2048x128_S2048x128_S128x128_0_0_1_1_n_n 2048 rfl rfl l
  have el : dot_S2048x128_S2048x128_S128x128_0_0_1_1_n_n.lhsIdx (ix2 d e) ((contrEquiv1 dot_S2048x128_S2048x128_S128x128_0_0_1_1_n_n 2048 rfl rfl).symm l) = ix2 l d := funext fun x => Fin.ext (by
    match x with
    | ⟨0, _⟩ => exact (dot_S2048x128_S2048x128_S128x128_0_0_1_1_n_n.lhsIdx_val_of_single rfl _ _).trans hk
    | ⟨1, _⟩ => exact covL_1 _ _)
  have er : dot_S2048x128_S2048x128_S128x128_0_0_1_1_n_n.rhsIdx (ix2 d e) ((contrEquiv1 dot_S2048x128_S2048x128_S128x128_0_0_1_1_n_n 2048 rfl rfl).symm l) = ix2 l e := funext fun x => Fin.ext (by
    match x with
    | ⟨0, _⟩ => exact (dot_S2048x128_S2048x128_S128x128_0_0_1_1_n_n.rhsIdx_val_of_single rfl _ _).trans hk
    | ⟨1, _⟩ => exact covR_1 _ _)
  rw [el, er, hA, hB]

theorem outL_0 (i : S2048x128.Idx) (q : dot_S2048x128_S128x128_S2048x128_1_1_0_0_n_n.contr.Idx) : (dot_S2048x128_S128x128_S2048x128_1_1_0_0_n_n.lhsIdx i q 0).val = (i 0).val := by
  unfold DotDims.lhsIdx
  rw [dif_neg (show ¬(0 : Fin S2048x128.rank) ∈ dot_S2048x128_S128x128_S2048x128_1_1_0_0_n_n.lhsBatch by decide), dif_pos (show (0 : Fin S2048x128.rank) ∈ dot_S2048x128_S128x128_S2048x128_1_1_0_0_n_n.lhsNonContracting by decide)]
  rfl
theorem outR_0 (i : S2048x128.Idx) (q : dot_S2048x128_S128x128_S2048x128_1_1_0_0_n_n.contr.Idx) : (dot_S2048x128_S128x128_S2048x128_1_1_0_0_n_n.rhsIdx i q 0).val = (i 1).val := by
  unfold DotDims.rhsIdx
  rw [dif_neg (show ¬(0 : Fin S128x128.rank) ∈ dot_S2048x128_S128x128_S2048x128_1_1_0_0_n_n.rhsBatch by decide), dif_pos (show (0 : Fin S128x128.rank) ∈ dot_S2048x128_S128x128_S2048x128_1_1_0_0_n_n.rhsNonContracting by decide)]
  rfl

/-- The product contracting the channels, at `(l, d)`: the sum over the channels of row `l` times row `d`. -/
theorem outMat_apply (v : FVec Ideal S2048x128 .f32) (w : FVec Ideal S128x128 .f32) (X : Slab) (W : Chan)
    (hX : ∀ l d, v (ix2 l d) = X l d) (hW : ∀ d e, w (ix2 d e) = W d e) (l : Fin 2048) (d : Fin 128) :
    outMat v w (ix2 l d) = ∑ e : Fin 128, X l e * W d e := by
  unfold outMat
  simp only [matmul]
  rw [Ideal.matmul_constant_zero_apply, ← Equiv.sum_comp (contrEquiv1 dot_S2048x128_S128x128_S2048x128_1_1_0_0_n_n 128 rfl rfl).symm]
  refine Finset.sum_congr rfl fun e _ => ?_
  have hk := contrEquiv1_symm_val dot_S2048x128_S128x128_S2048x128_1_1_0_0_n_n 128 rfl rfl e
  have el : dot_S2048x128_S128x128_S2048x128_1_1_0_0_n_n.lhsIdx (ix2 l d) ((contrEquiv1 dot_S2048x128_S128x128_S2048x128_1_1_0_0_n_n 128 rfl rfl).symm e) = ix2 l e := funext fun x => Fin.ext (by
    match x with
    | ⟨0, _⟩ => exact outL_0 _ _
    | ⟨1, _⟩ => exact (dot_S2048x128_S128x128_S2048x128_1_1_0_0_n_n.lhsIdx_val_of_single rfl _ _).trans hk)
  have er : dot_S2048x128_S128x128_S2048x128_1_1_0_0_n_n.rhsIdx (ix2 l d) ((contrEquiv1 dot_S2048x128_S128x128_S2048x128_1_1_0_0_n_n 128 rfl rfl).symm e) = ix2 d e := funext fun x => Fin.ext (by
    match x with
    | ⟨0, _⟩ => exact outR_0 _ _
    | ⟨1, _⟩ => exact (dot_S2048x128_S128x128_S2048x128_1_1_0_0_n_n.rhsIdx_val_of_single rfl _ _).trans hk)
  rw [el, er, hX, hW]

/-! ## The stages at an index -/

theorem rows_apply (x : Vec Ideal S1x2048x128 .f32) (l : Fin 2048) (d : Fin 128) : rows x (ix2 l d) = blockSlab x l d :=
  shapeCast_1ab_ab_apply x shapeCasts_S1x2048x128_S2048x128 l d

theorem normRow_apply (v : FVec Ideal S2048x128 .f32) (X : Slab) (hX : ∀ l d, v (ix2 l d) = X l d) (u : Fin 1) (d : Fin 128) :
    normRow v (ix2 u d) = colNorm X d := by
  show max (Ideal.sqrt (shapeCast S1x128 (multiReduction .add [0] S128 (mulf v v) 0x00000000#32 reduces_S2048x128_S128 (.inl rfl) rfl) shapeCasts_S128_S1x128 (ix2 u d)))
      (Ideal.ofBits .f32 0x2B8CBCCC#32) = _
  rw [shapeCast_a_1a_apply]
  refine congrArg (fun s => max (Ideal.sqrt s) floorEps)
    ((colSum_apply (mulf v v) _ _ d).trans (Finset.sum_congr rfl fun l _ => ?_))
  show v (ix2 l d) * v (ix2 l d) = _
  rw [hX]

theorem unitMat_apply (v : FVec Ideal S2048x128 .f32) (X : Slab) (hX : ∀ l d, v (ix2 l d) = X l d) (l : Fin 2048) (d : Fin 128) :
    unitMat v (ix2 l d) = unitCol X l d := by
  show Ideal.div (v (ix2 l d)) (broadcastTo S2048x128 (normRow v) broadcasts_S1x128_S2048x128 (ix2 l d)) = _
  rw [broadcastTo_1b_ab_apply, normRow_apply v X hX, hX]
  rfl

theorem maxVec_apply (c : FVec Ideal S128x128 .f32) (C : Chan) (hC : ∀ d e, c (ix2 d e) = C d e) (d : Fin 128) :
    maxVec c (ix1 d) = max negInf ((Finset.univ : Finset (Fin 128)).fold max negInf fun e => C d e) := by
  show max (Ideal.ofBits .f32 0xFF800000#32)
      (multiReduction .maximumf [1] S128 c 0xFF800000#32 reduces_S128x128_S128 (.inl rfl) rfl (ix1 d)) = _
  refine congrArg (fun s => max negInf s) ((rowMaxRed_apply c _ _ d).trans ?_)
  exact congrArg (fun f => (Finset.univ : Finset (Fin 128)).fold max negInf f) (funext fun e => hC d e)

theorem expMat_apply (c : FVec Ideal S128x128 .f32) (C : Chan) (hC : ∀ d e, c (ix2 d e) = C d e) (d e : Fin 128) :
    expMat c (ix2 d e) = Ideal.exp (C d e - max negInf ((Finset.univ : Finset (Fin 128)).fold max negInf fun e' => C d e')) := by
  show Ideal.exp (c (ix2 d e) - broadcastTo S128x128 (shapeCast S128x1 (maxVec c) shapeCasts_S128_S128x1) broadcasts_S128x1_S128x128 (ix2 d e)) = _
  rw [broadcastTo_a1_ab_apply, shapeCast_a_a1_apply, maxVec_apply c C hC, hC]

theorem sumVec_apply (p : FVec Ideal S128x128 .f32) (P : Chan) (hP : ∀ d e, p (ix2 d e) = P d e) (d : Fin 128) :
    sumVec p (ix1 d) = ∑ e : Fin 128, P d e := by
  exact (rowSum_apply p _ _ d).trans (Finset.sum_congr rfl fun e _ => hP d e)

theorem weightMat_apply (p : FVec Ideal S128x128 .f32) (P : Chan) (hP : ∀ d e, p (ix2 d e) = P d e) (d e : Fin 128) :
    weightMat p (ix2 d e) = Ideal.div (P d e) (∑ e' : Fin 128, P d e') := by
  show Ideal.div (p (ix2 d e)) (broadcastTo S128x128 (shapeCast S128x1 (sumVec p) shapeCasts_S128_S128x1) broadcasts_S128x1_S128x128 (ix2 d e)) = _
  rw [broadcastTo_a1_ab_apply, shapeCast_a_a1_apply, sumVec_apply p P hP, hP]

/-! ## The body's result at an index -/

/-- What the body stores, at `(0, l, d)` of its block, is channel attention of the three loaded blocks at `(l, d)`. -/
theorem payload_apply (x0 x1 x2 : Vec Ideal S1x2048x128 .f32) (u : Fin 1) (l : Fin 2048) (d : Fin 128) :
    k0_pay1 (F := Ideal) x0 x1 x2 (ix3 u l d) = attend (blockSlab x0) (blockSlab x1) (blockSlab x2) l d := by
  rw [payload_eq, shapeCast_ab_1ab_apply]
  have hcov : ∀ d e : Fin 128, covMat (unitMat (rows x0)) (unitMat (rows x1)) (ix2 d e) = cov (blockSlab x0) (blockSlab x1) d e :=
    fun d e => covMat_apply _ _ (unitCol (blockSlab x0)) (unitCol (blockSlab x1))
      (unitMat_apply _ (blockSlab x0) (rows_apply x0)) (unitMat_apply _ (blockSlab x1) (rows_apply x1)) d e
  have hexp : ∀ d e : Fin 128, expMat (covMat (unitMat (rows x0)) (unitMat (rows x1))) (ix2 d e) = expo (blockSlab x0) (blockSlab x1) d e :=
    fun d e => expMat_apply _ (cov (blockSlab x0) (blockSlab x1)) hcov d e
  have hw : ∀ d e : Fin 128, weightMat (expMat (covMat (unitMat (rows x0)) (unitMat (rows x1)))) (ix2 d e) = weight (blockSlab x0) (blockSlab x1) d e :=
    fun d e => weightMat_apply _ (expo (blockSlab x0) (blockSlab x1)) hexp d e
  exact outMat_apply _ _ (blockSlab x2) (weight (blockSlab x0) (blockSlab x1)) (rows_apply x2) hw l d

/-- The same at any index of the block, its row and channel read off the index. -/
theorem payload_at (x0 x1 x2 : Vec Ideal S1x2048x128 .f32) (y : S1x2048x128.Idx) :
    k0_pay1 (F := Ideal) x0 x1 x2 y
      = attend (blockSlab x0) (blockSlab x1) (blockSlab x2) ⟨(y 1).val, (y 1).isLt⟩ ⟨(y 2).val, (y 2).isLt⟩ := by
  obtain ⟨u, l, d, rfl⟩ : ∃ (u : Fin 1) (l : Fin 2048) (d : Fin 128), y = ix3 u l d := ⟨y 0, y 1, y 2, eq_ix3 y⟩
  exact payload_apply x0 x1 x2 u l d

end Cert.KernelIdeal.BlockValue

end
-- ==== Proof.ArrayValue.lean ====
/-
  From the kernel's blocks to its result array.

  The grid has one point per batch entry. At point `t` every window's block is batch entry `t` whole: block index
  `(t, 0, 0)` with block sizes `(1, 2048, 128`), so the element `(0, l, d)` of a block is the array's element
  `(t, l, d)`. What the point writes back is therefore channel attention of batch entry `t` of the three arguments,
  which is block `t` of channel attention taken entry by entry over the whole arrays; the four blocks cover the result
  array, so after the run the result array is that function of the arguments.
-/
import proofs.«142252_j71021579206720_1_alg».proof.Proof.Gen.KernelIdeal.Value
import proofs.«142252_j71021579206720_1_alg».proof.Proof.BlockValue
import Idealize.ShloMosaic.Lib.Pipeline.Value

noncomputable section

namespace Cert.KernelIdeal.ArrayValue

open Cert.KernelIdeal Cert.KernelIdeal.Gen Cert.KernelIdeal.BlockValue Cert.ChannelAttn
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zeroOffsets : (![0, 0, 0] : Fin 3 → Nat) = fun _ => 0 := funext fun a => by fin_cases a <;> rfl

/-- The index maps, decided over the four grid points: every window's block index is `(b, 0, 0)` with the one `b`
    of the output's block, and `b` is a batch entry. -/
theorem blockIndex : ∀ t : Fin cfg0.N,
    win0_0.index t (0 : Fin 3) = win0_3.index t (0 : Fin 3) ∧ win0_0.index t (1 : Fin 3) = 0 ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (1 : Fin 3) = 0 ∧ win0_3.index t (2 : Fin 3) = 0 ∧ win0_3.index t (0 : Fin 3) < 4 :=
  (by decide +kernel : ∀ t : Fin grid0.N, _)

/-- Every batch entry is some point's output block. -/
theorem blockOnto : ∀ b : Fin 4, ∃ t : Fin cfg0.N, win0_3.index t = ![b.val, 0, 0] :=
  (by decide +kernel : ∀ b : Fin 4, ∃ t : Fin grid0.N, win0_3.index t = ![b.val, 0, 0])

/-! ## Each input block is a batch entry of its argument -/

theorem block_q (c : Dev nD) (t : Fin cfg0.N) (b : Fin 4) (h0 : win0_0.index t (0 : Fin 3) = b.val)
    (h1 : win0_0.index t (1 : Fin 3) = 0) (h2 : win0_0.index t (2 : Fin 3) = 0) :
    blockSlab (iblk m c 0 t) = slab (V m c main_arg0) b := by
  funext l d
  show V m c main_arg0 (((cfg0.win 0).blk t).view.emb (ix3 (0 : Fin 1) l d)) = V m c main_arg0 (ix3 b l d)
  refine congrArg (V m c main_arg0) (funext fun a => Fin.ext ?_)
  match a with
  | ⟨0, _⟩ => show win0_0.index t (0 : Fin 3) * 1 + 1 * 0 = b.val; omega
  | ⟨1, _⟩ => show win0_0.index t (1 : Fin 3) * 2048 + 1 * l.val = l.val; omega
  | ⟨2, _⟩ => show win0_0.index t (2 : Fin 3) * 128 + 1 * d.val = d.val; omega

theorem block_k (c : Dev nD) (t : Fin cfg0.N) (b : Fin 4) (h0 : win0_1.index t (0 : Fin 3) = b.val)
    (h1 : win0_1.index t (1 : Fin 3) = 0) (h2 : win0_1.index t (2 : Fin 3) = 0) :
    blockSlab (iblk m c 1 t) = slab (V m c main_arg1) b := by
  funext l d
  show V m c main_arg1 (((cfg0.win 1).blk t).view.emb (ix3 (0 : Fin 1) l d)) = V m c main_arg1 (ix3 b l d)
  refine congrArg (V m c main_arg1) (funext fun a => Fin.ext ?_)
  match a with
  | ⟨0, _⟩ => show win0_1.index t (0 : Fin 3) * 1 + 1 * 0 = b.val; omega
  | ⟨1, _⟩ => show win0_1.index t (1 : Fin 3) * 2048 + 1 * l.val = l.val; omega
  | ⟨2, _⟩ => show win0_1.index t (2 : Fin 3) * 128 + 1 * d.val = d.val; omega

theorem block_v (c : Dev nD) (t : Fin cfg0.N) (b : Fin 4) (h0 : win0_2.index t (0 : Fin 3) = b.val)
    (h1 : win0_2.index t (1 : Fin 3) = 0) (h2 : win0_2.index t (2 : Fin 3) = 0) :
    blockSlab (iblk m c 2 t) = slab (V m c main_arg2) b := by
  funext l d
  show V m c main_arg2 (((cfg0.win 2).blk t).view.emb (ix3 (0 : Fin 1) l d)) = V m c main_arg2 (ix3 b l d)
  refine congrArg (V m c main_arg2) (funext fun a => Fin.ext ?_)
  match a with
  | ⟨0, _⟩ => show win0_2.index t (0 : Fin 3) * 1 + 1 * 0 = b.val; omega
  | ⟨1, _⟩ => show win0_2.index t (1 : Fin 3) * 2048 + 1 * l.val = l.val; omega
  | ⟨2, _⟩ => show win0_2.index t (2 : Fin 3) * 128 + 1 * d.val = d.val; omega

/-! ## What a point writes back, the cover, the array -/

/-- What point `t` writes back is block `t` of channel attention of the argument arrays taken entry by entry. -/
theorem flushed_eq (c : Dev nD) (t : Fin cfg0.N) :
    (dats m 0 c).flushed 3 t
      = ((cfg0.win 3).blk t).view.read (Elt Ideal) (attendAll (V m c main_arg0) (V m c main_arg1) (V m c main_arg2)) := by
  rw [Cert.KernelIdeal.Value.flushed3]
  unfold out0_3
  rw [View.canon_unit_zero zeroOffsets]
  simp only [View.ld_unit_zero (S := S1x2048x128) zeroOffsets]
  obtain ⟨e00, e01, e02, e10, e11, e12, e20, e21, e22, e31, e32, e3lt⟩ := blockIndex t
  funext j
  show k0_pay1 (F := Ideal) (iblk m c 0 t) (iblk m c 1 t) (iblk m c 2 t) j
    = attendAll (V m c main_arg0) (V m c main_arg1) (V m c main_arg2) (((cfg0.win 3).blk t).view.emb j)
  refine (payload_at _ _ _ j).trans ?_
  have hemb : ((cfg0.win 3).blk t).view.emb j
      = ix3 (⟨win0_3.index t (0 : Fin 3), e3lt⟩ : Fin 4) (⟨(j 1).val, (j 1).isLt⟩ : Fin 2048) (⟨(j 2).val, (j 2).isLt⟩ : Fin 128) :=
    funext fun a => Fin.ext (by
      match a with
      | ⟨0, _⟩ =>
        show win0_3.index t (0 : Fin 3) * 1 + 1 * (j 0).val = win0_3.index t (0 : Fin 3)
        have hj : (j 0).val < 1 := (j 0).isLt
        omega
      | ⟨1, _⟩ => show win0_3.index t (1 : Fin 3) * 2048 + 1 * (j 1).val = (j 1).val; omega
      | ⟨2, _⟩ => show win0_3.index t (2 : Fin 3) * 128 + 1 * (j 2).val = (j 2).val; omega)
  rw [hemb, attendAll_ix3, block_q m c t ⟨win0_3.index t (0 : Fin 3), e3lt⟩ e00 e01 e02,
    block_k m c t ⟨win0_3.index t (0 : Fin 3), e3lt⟩ e10 e11 e12, block_v m c t ⟨win0_3.index t (0 : Fin 3), e3lt⟩ e20 e21 e22]

/-- An index of the result array is in point `t`'s block iff each coordinate is in the block's range on its axis. -/
theorem mem_block (t : Fin cfg0.N) (i : S4x2048x128.Idx) :
    i ∈ ((cfg0.win 3).blk t).view.set ↔ ∀ a : Fin 3, win0_3.index t a * S1x2048x128.size a ≤ (i a).val
      ∧ (i a).val < win0_3.index t a * S1x2048x128.size a + S1x2048x128.size a := by
  show i ∈ ((View.whole main_v0).slice (win0_3.rect t)).set ↔ _
  rw [View.set_slice_whole, Rect.mem_set_unit]
  exact Iff.rfl

/-- Every index of the result array is in the block of the point of its batch entry. -/
theorem covered (i : S4x2048x128.Idx) :
    ∃ t : Fin cfg0.N, (cfg0.win 3).flush t = true ∧ i ∈ ((cfg0.win 3).blk t).view.set := by
  have hi0 : (i 0).val < 4 := (i 0).isLt
  have hi1 : (i 1).val < 2048 := (i 1).isLt
  have hi2 : (i 2).val < 128 := (i 2).isLt
  obtain ⟨t, ht⟩ := blockOnto ⟨(i 0).val, hi0⟩
  have q0 : win0_3.index t (0 : Fin 3) = (i 0).val := congrFun ht 0
  have q1 : win0_3.index t (1 : Fin 3) = 0 := congrFun ht 1
  have q2 : win0_3.index t (2 : Fin 3) = 0 := congrFun ht 2
  refine ⟨t, flush0_3 t, ?_⟩
  rw [mem_block]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 128 ≤ (i 2).val ∧ (i 2).val < win0_3.index t (2 : Fin 3) * 128 + 128; omega

/-- After the run the result array is channel attention of the argument arrays, entry by entry. -/
theorem final (c : Dev nD) :
    (dats m 0 c).arrAt 3 cfg0.N
      = attendAll (m ((c : Thread nD τ).loc main_arg0)) (m ((c : Thread nD τ).loc main_arg1)) (m ((c : Thread nD τ).loc main_arg2)) :=
  (dats m 0 c).arrAt_eq_of_cover 3 _ (fun t _ => flushed_eq m c t) covered

/-- The kernel's run, read: the result array at channel attention of the arguments, the arguments unchanged. -/
theorem run : θ_run defs (onTc (τ := τ) (main (F := Ideal))) ⟨m, fun _ => 0, ρ⟩ fun r => ∀ c : Dev nD,
      r.2.mem ((c : Thread nD τ).loc main_v0)
        = attendAll (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.ArrayValue

end
-- ==== Proof.RefValue.lean ====
/-
  The reference program's result, read at an index, is channel attention of the arguments' batch entries.

  The reference normalizes the columns of `q` and `k` over the sequence axis, contracts the two over that axis into a
  batch of 128 × 128 cross-covariances, takes a softmax over the last axis and contracts `v` with the weights. Read
  one stage at a time at an index written by its coordinates `(b, l, d)`, each stage is the corresponding function
  of `Cert.ChannelAttn` applied to the batch entries `b` of the arguments: a host sum is its initial value `0` plus
  the sum over the reduced axis, a host maximum-reduce the fold of `max` from its initial value over the reduced
  axis, a `dot_general` the sum over the contracted axis of the products.
-/
import proofs.«142252_j71021579206720_1_alg».proof.Proof.Gen.ReferenceIdeal.Read
import proofs.«142252_j71021579206720_1_alg».proof.Proof.ChannelAttn
import Idealize.ShloMosaic.Lib.ValueIdx
import Idealize.ShloMosaic.PureOps.Ideal.Laws
import Idealize.ShloMosaic.PureOps.Reduce

noncomputable section

open scoped BigOperators

namespace Cert.ReferenceIdeal.RefValue

open Cert.ReferenceIdeal Cert.ReferenceIdeal.Gen Cert.ReferenceIdeal.Read Cert.ChannelAttn Idealize.ShloMosaic Idealize.ShloMosaic.ValueIdx

/-! ## The column norms and the normalized columns -/

theorem colNorm_q (x : Arr) (b : Fin 4) (u : Fin 1) (d : Fin 128) :
    val_main_v5 (F := Ideal) x (ix3 b u d) = colNorm (slab x b) d := by
  rw [val_main_v5_apply, val_main_v3_apply, val_main_v2_apply, val_main_v4_apply, val_main_cst_0_apply, val_main_v1_apply]
  have e : ∀ k : Fin 2048, idx_main_v1 (idx_main_v2 (ix3 b u d)) k = ix3 b k d := fun k =>
    funext fun a => Fin.ext (by match a with | ⟨0, _⟩ => rfl | ⟨1, _⟩ => rfl | ⟨2, _⟩ => rfl)
  simp only [e, val_main_cst_apply, val_main_v0_apply, Ideal.ofBits_def, Ideal.ofBits_zero_f32, zero_add,
    Ideal.maximumf_def, Ideal.hostUnary_sqrt_def, Ideal.mulf_def]
  rfl

theorem unit_q (x : Arr) (b : Fin 4) (l : Fin 2048) (d : Fin 128) :
    val_main_v7 (F := Ideal) x (ix3 b l d) = unitCol (slab x b) l d := by
  rw [val_main_v7_apply, val_main_v6_apply]
  have e : idx_main_v6 (ix3 b l d) = ix3 b (0 : Fin 1) d :=
    funext fun a => Fin.ext (by match a with | ⟨0, _⟩ => rfl | ⟨1, _⟩ => rfl | ⟨2, _⟩ => rfl)
  rw [e, colNorm_q]
  rfl

theorem colNorm_k (x : Arr) (b : Fin 4) (u : Fin 1) (d : Fin 128) :
    val_main_v13 (F := Ideal) x (ix3 b u d) = colNorm (slab x b) d := by
  rw [val_main_v13_apply, val_main_v11_apply, val_main_v10_apply, val_main_v12_apply, val_main_cst_2_apply, val_main_v9_apply]
  have e : ∀ k : Fin 2048, idx_main_v9 (idx_main_v10 (ix3 b u d)) k = ix3 b k d := fun k =>
    funext fun a => Fin.ext (by match a with | ⟨0, _⟩ => rfl | ⟨1, _⟩ => rfl | ⟨2, _⟩ => rfl)
  simp only [e, val_main_cst_1_apply, val_main_v8_apply, Ideal.ofBits_def, Ideal.ofBits_zero_f32, zero_add,
    Ideal.maximumf_def, Ideal.hostUnary_sqrt_def, Ideal.mulf_def]
  rfl

theorem unit_k (x : Arr) (b : Fin 4) (l : Fin 2048) (d : Fin 128) :
    val_main_v15 (F := Ideal) x (ix3 b l d) = unitCol (slab x b) l d := by
  rw [val_main_v15_apply, val_main_v14_apply]
  have e : idx_main_v14 (ix3 b l d) = ix3 b (0 : Fin 1) d :=
    funext fun a => Fin.ext (by match a with | ⟨0, _⟩ => rfl | ⟨1, _⟩ => rfl | ⟨2, _⟩ => rfl)
  rw [e, colNorm_k]
  rfl

/-! ## The cross-covariance and its softmax -/

theorem cov_eq (q k : Arr) (b : Fin 4) (d e : Fin 128) :
    val_main_v16 (F := Ideal) q k (ix3 b d e) = cov (slab q b) (slab k b) d e := by
  rw [val_main_v16_apply]
  refine Finset.sum_congr rfl fun l _ => ?_
  have el : lidx_main_v16 (ix3 b d e) l = ix3 b l d :=
    funext fun a => Fin.ext (by match a with | ⟨0, _⟩ => rfl | ⟨1, _⟩ => rfl | ⟨2, _⟩ => rfl)
  have er : ridx_main_v16 (ix3 b d e) l = ix3 b l e :=
    funext fun a => Fin.ext (by match a with | ⟨0, _⟩ => rfl | ⟨1, _⟩ => rfl | ⟨2, _⟩ => rfl)
  rw [el, er, unit_q, unit_k]

theorem rowMax_eq (q k : Arr) (b : Fin 4) (d : Fin 128) :
    val_main_v19 (F := Ideal) q k (ix2 b d) = rowMax (slab q b) (slab k b) d := by
  have h : S4x128x128.Reduces [2] S4x128 := by decide
  rw [val_main_v19_apply, val_main_v18_apply, val_main_cst_4_apply]
  unfold val_main_v17
  rw [Host.reduce_eq_fold_single FloatOps.maximumf _ _ reducesTo_S4x128x128_S4x128_d2 h h_S_, val_main_cst_3_apply]
  show max negInf ((Finset.univ : Finset (Fin 128)).fold max negInf (val_main_v16 (F := Ideal) q k ∘ h.lift (ix2 b d)))
    = max negInf ((Finset.univ : Finset (Fin 128)).fold max negInf fun e => cov (slab q b) (slab k b) d e)
  refine congrArg (fun f => max negInf ((Finset.univ : Finset (Fin 128)).fold max negInf f)) (funext fun e : Fin 128 => ?_)
  show val_main_v16 (F := Ideal) q k (h.lift (ix2 b d) e) = _
  have hi : h.lift (ix2 b d) e = ix3 b d e :=
    funext fun a => Fin.ext (by match a with | ⟨0, _⟩ => rfl | ⟨1, _⟩ => rfl | ⟨2, _⟩ => rfl)
  rw [hi, cov_eq]

theorem expo_eq (q k : Arr) (b : Fin 4) (d e : Fin 128) :
    val_main_v23 (F := Ideal) q k (ix3 b d e) = expo (slab q b) (slab k b) d e := by
  rw [val_main_v23_apply, val_main_v22_apply, val_main_v21_apply, val_main_v20_apply, cov_eq]
  have e1 : idx_main_v20 (idx_main_v21 (ix3 b d e)) = ix2 b d :=
    funext fun a => Fin.ext (by match a with | ⟨0, _⟩ => rfl | ⟨1, _⟩ => rfl)
  rw [e1, rowMax_eq]
  rfl

theorem denom_eq (q k : Arr) (b : Fin 4) (d : Fin 128) :
    val_main_v24 (F := Ideal) q k (ix2 b d) = denom (slab q b) (slab k b) d := by
  rw [val_main_v24_apply, val_main_cst_5_apply]
  have e : ∀ j : Fin 128, idx_main_v24 (ix2 b d) j = ix3 b d j := fun j =>
    funext fun a => Fin.ext (by match a with | ⟨0, _⟩ => rfl | ⟨1, _⟩ => rfl | ⟨2, _⟩ => rfl)
  simp only [e, expo_eq, Ideal.ofBits_def, Ideal.ofBits_zero_f32, zero_add]
  rfl

theorem weight_eq (q k : Arr) (b : Fin 4) (d e : Fin 128) :
    val_main_v27 (F := Ideal) q k (ix3 b d e) = weight (slab q b) (slab k b) d e := by
  rw [val_main_v27_apply, val_main_v26_apply, val_main_v25_apply, expo_eq]
  have e1 : idx_main_v25 (idx_main_v26 (ix3 b d e)) = ix2 b d :=
    funext fun a => Fin.ext (by match a with | ⟨0, _⟩ => rfl | ⟨1, _⟩ => rfl)
  rw [e1, denom_eq]
  rfl

/-! ## The result -/

/-- The reference's result at `(b, l, d)` is channel attention of batch entry `b` of the three arguments. -/
theorem result_apply (q k v : Arr) (b : Fin 4) (l : Fin 2048) (d : Fin 128) :
    val_main_v28 (F := Ideal) q k v (ix3 b l d) = attend (slab q b) (slab k b) (slab v b) l d := by
  rw [val_main_v28_apply]
  refine Finset.sum_congr rfl fun e _ => ?_
  have el : lidx_main_v28 (ix3 b l d) e = ix3 b l e :=
    funext fun a => Fin.ext (by match a with | ⟨0, _⟩ => rfl | ⟨1, _⟩ => rfl | ⟨2, _⟩ => rfl)
  have er : ridx_main_v28 (ix3 b l d) e = ix3 b d e :=
    funext fun a => Fin.ext (by match a with | ⟨0, _⟩ => rfl | ⟨1, _⟩ => rfl | ⟨2, _⟩ => rfl)
  rw [el, er, weight_eq]
  rfl

/-- So the reference's result array is channel attention of every batch entry. -/
theorem result_eq (q k v : Arr) : val_main_v28 (F := Ideal) q k v = attendAll q k v := by
  funext i
  obtain ⟨b, l, d, rfl⟩ : ∃ (b : Fin 4) (l : Fin 2048) (d : Fin 128), i = ix3 b l d := ⟨i 0, i 1, i 2, eq_ix3 i⟩
  rw [result_apply, attendAll_ix3]

end Cert.ReferenceIdeal.RefValue

end
-- ==== Proof.lean ====
/- The proof of `Cert.Claim` (proofs.«142252_j71021579206720_1_alg».proof.Defs).

   Both programs compute, for each of the 4 batch entries, channel attention of the entry's three matrices
   (Proof/ChannelAttn.lean): the columns of `q` and `k` divided by their floored norms over the sequence axis, the
   128 × 128 cross-covariance of the normalized columns, a softmax over its rows, and `v` times the transposed
   weights. The kernel does it one batch entry per grid point (Proof/BlockValue.lean: its body read at an index;
   Proof/ArrayValue.lean: from the points' blocks to the result array), the reference on whole arrays with a batch
   axis (Proof/RefValue.lean: its stages read at an index). Operation by operation the two are the same function of
   the arguments on the extended reals — the same literals on both sides, a lane or sublane sum against the host's
   sum from `0`, a maximum reduction against the host's from minus infinity, a matrix product into a zero
   accumulator against the host's `dot_general` — so no algebraic law joins them and the inputs' finiteness is not
   used. The frames are the generated ones (the reference's is its generated run with the result dropped), and the
   idealization rewrote nothing, so `preserves` is `True`. -/
import proofs.«142252_j71021579206720_1_alg».proof.Defs
import proofs.«142252_j71021579206720_1_alg».proof.Proof.Gen.Kernel
import proofs.«142252_j71021579206720_1_alg».proof.Proof.Gen.Kernel.Frame
import proofs.«142252_j71021579206720_1_alg».proof.Proof.Gen.KernelIdeal
import proofs.«142252_j71021579206720_1_alg».proof.Proof.Gen.KernelIdeal.Frame
import proofs.«142252_j71021579206720_1_alg».proof.Proof.Gen.KernelIdeal.Value
import proofs.«142252_j71021579206720_1_alg».proof.Proof.Gen.ReferenceIdeal
import proofs.«142252_j71021579206720_1_alg».proof.Proof.Gen.ReferenceIdeal.Run
import proofs.«142252_j71021579206720_1_alg».proof.Proof.Gen.ReferenceIdeal.Read
import proofs.«142252_j71021579206720_1_alg».proof.Proof.Gen.Pre_finite_inputs
import proofs.«142252_j71021579206720_1_alg».proof.Proof.ArrayValue
import proofs.«142252_j71021579206720_1_alg».proof.Proof.RefValue

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at channel attention, entry by entry, of arguments that agree. -/
theorem algebraic : Cert.algebraic_KernelIdeal_ReferenceIdeal := by
  intro m ρ m' ρ' _ hagree
  refine ⟨fun c => Cert.ChannelAttn.attendAll
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.ArrayValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v28_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
